-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel

variable [Facts]

def fn {F : FTy → Type} [FloatOps F] (main_arg0 : FVec F S32x512x56x56 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  main_v3
-- ==== Kernel.lean ====
abbrev S32x512x56x56 : Shape := ⟨4, ![32, 512, 56, 56]⟩
abbrev S32x512x1x1 : Shape := ⟨4, ![32, 512, 1, 1]⟩
abbrev S1x512x56x56 : Shape := ⟨4, ![1, 512, 56, 56]⟩
abbrev S1x512x1x1 : Shape := ⟨4, ![1, 512, 1, 1]⟩
abbrev S1x512x56 : Shape := ⟨3, ![1, 512, 56]⟩
abbrev S1x512x56x1 : Shape := ⟨4, ![1, 512, 56, 1]⟩
abbrev S1x512x1 : Shape := ⟨3, ![1, 512, 1]⟩
abbrev S32x16x32x1x1 : Shape := ⟨5, ![32, 16, 32, 1, 1]⟩
abbrev S32x32x16x1x1 : Shape := ⟨5, ![32, 32, 16, 1, 1]⟩
abbrev S_ : Shape := ⟨0, ![]⟩
abbrev S1x256x56x56 : Shape := ⟨4, ![1, 256, 56, 56]⟩
abbrev S1x256x1x1 : Shape := ⟨4, ![1, 256, 1, 1]⟩

abbrev nBuf : Space → Nat
  | .hbm => 17
  | .vmem => 10
  | .smem => 0
  | _ => 0

abbrev bufTy : (tb : Table) → Fin (tcTables nBuf tb) → BufTy
  | .hbm, ⟨0, _⟩ => ⟨S32x512x56x56, .f32⟩
  | .hbm, ⟨1, _⟩ => ⟨S32x512x1x1, .f32⟩
  | .hbm, ⟨2, _⟩ => ⟨S32x16x32x1x1, .f32⟩
  | .hbm, ⟨3, _⟩ => ⟨S32x32x16x1x1, .f32⟩
  | .hbm, ⟨4, _⟩ => ⟨S32x512x1x1, .f32⟩
  | .hbm, ⟨5, _⟩ => ⟨S32x32x16x1x1, .f32⟩
  | .hbm, ⟨6, _⟩ => ⟨S32x16x32x1x1, .f32⟩
  | .hbm, ⟨7, _⟩ => ⟨S32x512x1x1, .f32⟩
  | .hbm, ⟨8, _⟩ => ⟨S32x512x1x1, .f32⟩
  | .hbm, ⟨9, _⟩ => ⟨S32x512x1x1, .f32⟩
  | .hbm, ⟨10, _⟩ => ⟨S_, .f32⟩
  | .hbm, ⟨11, _⟩ => ⟨S32x512x1x1, .f32⟩
  | .hbm, ⟨12, _⟩ => ⟨S32x512x1x1, .f32⟩
  | .hbm, ⟨13, _⟩ => ⟨S_, .f32⟩
  | .hbm, ⟨14, _⟩ => ⟨S32x512x1x1, .f32⟩
  | .hbm, ⟨15, _⟩ => ⟨S32x512x1x1, .f32⟩
  | .hbm, ⟨16, _⟩ => ⟨S32x512x56x56, .f32⟩
  | .local _ .vmem, ⟨0, _⟩ => ⟨S1x512x56x56, .f32⟩
  | .local _ .vmem, ⟨1, _⟩ => ⟨S1x512x56x56, .f32⟩
  | .local _ .vmem, ⟨2, _⟩ => ⟨S1x512x1x1, .f32⟩
  | .local _ .vmem, ⟨3, _⟩ => ⟨S1x512x1x1, .f32⟩
  | .local _ .vmem, ⟨4, _⟩ => ⟨S1x256x56x56, .f32⟩
  | .local _ .vmem, ⟨5, _⟩ => ⟨S1x256x56x56, .f32⟩
  | .local _ .vmem, ⟨6, _⟩ => ⟨S1x256x1x1, .f32⟩
  | .local _ .vmem, ⟨7, _⟩ => ⟨S1x256x1x1, .f32⟩
  | .local _ .vmem, ⟨8, _⟩ => ⟨S1x256x56x56, .f32⟩
  | .local _ .vmem, ⟨9, _⟩ => ⟨S1x256x56x56, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![32, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x56x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x512x56x56_S1x512x56x56_0_0_0_0 : ∀ a, (![0, 0, 0, 0] : Fin 4 → Nat) a + S1x512x56x56.size a ≤ S1x512x56x56.size a
  h_S1x512x56x56 : 0 < S1x512x56x56.numel
  reduces_S1x512x56x56_S1x512x56 : S1x512x56x56.Reduces [3] S1x512x56
  shapeCasts_S1x512x56_S1x512x56x1 : S1x512x56.ShapeCasts S1x512x56x1
  reduces_S1x512x56x1_S1x512x1 : S1x512x56x1.Reduces [2] S1x512x1
  shapeCasts_S1x512x1_S1x512x1x1 : S1x512x1.ShapeCasts S1x512x1x1
  inb_S1x512x1x1_S1x512x1x1_0_0_0_0 : ∀ a, (![0, 0, 0, 0] : Fin 4 → Nat) a + S1x512x1x1.size a ≤ S1x512x1x1.size a
  h_S1x512x1x1 : 0 < S1x512x1x1.numel
  shapeCasts_S32x512x1x1_S32x16x32x1x1 : S32x512x1x1.ShapeCasts S32x16x32x1x1
  transposes_S32x16x32x1x1_S32x32x16x1x1_0_2_1_3_4 : S32x16x32x1x1.Transposes [0, 2, 1, 3, 4] S32x32x16x1x1
  shapeCasts_S32x32x16x1x1_S32x512x1x1 : S32x32x16x1x1.ShapeCasts S32x512x1x1
  shapeCasts_S32x512x1x1_S32x32x16x1x1 : S32x512x1x1.ShapeCasts S32x32x16x1x1
  transposes_S32x32x16x1x1_S32x16x32x1x1_0_2_1_3_4 : S32x32x16x1x1.Transposes [0, 2, 1, 3, 4] S32x16x32x1x1
  shapeCasts_S32x16x32x1x1_S32x512x1x1 : S32x16x32x1x1.ShapeCasts S32x512x1x1
  bcast_S_S32x512x1x1 : S_.BroadcastsInDim S32x512x1x1 (![] : Fin 0 → Fin S32x512x1x1.rank)
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S1x256x1x1_S1x256x1x1 : S1x256x1x1.ShapeCasts S1x256x1x1
  inb_S1x256x56x56_S1x256x56x56_0_0_0_0 : ∀ a, (![0, 0, 0, 0] : Fin 4 → Nat) a + S1x256x56x56.size a ≤ S1x256x56x56.size a
  h_S1x256x56x56 : 0 < S1x256x56x56.numel
  broadcasts_S1x256x1x1_S1x256x56x56 : S1x256x1x1.Broadcasts S1x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x56x56.size a ≤ S32x512x56x56.size a
  hwx0_0 : ∀ i : grid0.Coords, EltTy.bits .f32 = 32 ∨ (Rect.block (s := S32x512x56x56) S1x512x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1x1.size a ≤ S32x512x1x1.size a
  hwx0_1 : ∀ i : grid0.Coords, EltTy.bits .f32 = 32 ∨ (Rect.block (s := S32x512x1x1) S1x512x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x56x56.size a ≤ S32x512x56x56.size a
  hwx1_0 : ∀ i : grid1.Coords, EltTy.bits .f32 = 32 ∨ (Rect.block (s := S32x512x56x56) S1x256x56x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1x1.size a ≤ S32x512x1x1.size a
  hwx1_1 : ∀ i : grid1.Coords, EltTy.bits .f32 = 32 ∨ (Rect.block (s := S32x512x1x1) S1x256x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x56x56.size a ≤ S32x512x56x56.size a
  hwx1_2 : ∀ i : grid1.Coords, EltTy.bits .f32 = 32 ∨ (Rect.block (s := S32x512x56x56) S1x256x56x56.size (cc1_transform_2 i) (hinb1_2 i)).WholeWords (EltTy.packing .f32)

variable [Facts₀]

abbrev win0_0 : Pipeline.Window sig grid0 :=
  Pipeline.Window.ofSpec (Memref.whole main_arg0) S1x512x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x256x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x256x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x256x56x56.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x512x56x56 : Shape := ⟨4, ![32, 512, 56, 56]⟩
abbrev S_ : Shape := ⟨0, ![]⟩
abbrev S32x512 : Shape := ⟨2, ![32, 512]⟩
abbrev S32x512x1x1 : Shape := ⟨4, ![32, 512, 1, 1]⟩
abbrev S32x16x32x1x1 : Shape := ⟨5, ![32, 16, 32, 1, 1]⟩
abbrev S32x32x16x1x1 : Shape := ⟨5, ![32, 32, 16, 1, 1]⟩

abbrev nBuf : Space → Nat
  | .hbm => 21
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S_, .f32⟩
  | .hbm, ⟨2, _⟩ => ⟨S32x512, .f32⟩
  | .hbm, ⟨3, _⟩ => ⟨S32x512x1x1, .f32⟩
  | .hbm, ⟨4, _⟩ => ⟨S32x16x32x1x1, .f32⟩
  | .hbm, ⟨5, _⟩ => ⟨S32x32x16x1x1, .f32⟩
  | .hbm, ⟨6, _⟩ => ⟨S32x512x1x1, .f32⟩
  | .hbm, ⟨7, _⟩ => ⟨S32x32x16x1x1, .f32⟩
  | .hbm, ⟨8, _⟩ => ⟨S32x16x32x1x1, .f32⟩
  | .hbm, ⟨9, _⟩ => ⟨S32x512x1x1, .f32⟩
  | .hbm, ⟨10, _⟩ => ⟨S32x512x1x1, .f32⟩
  | .hbm, ⟨11, _⟩ => ⟨S32x512x1x1, .f32⟩
  | .hbm, ⟨12, _⟩ => ⟨S_, .f32⟩
  | .hbm, ⟨13, _⟩ => ⟨S32x512x1x1, .f32⟩
  | .hbm, ⟨14, _⟩ => ⟨S32x512x1x1, .f32⟩
  | .hbm, ⟨15, _⟩ => ⟨S_, .f32⟩
  | .hbm, ⟨16, _⟩ => ⟨S32x512x1x1, .f32⟩
  | .hbm, ⟨17, _⟩ => ⟨S32x512x1x1, .f32⟩
  | .hbm, ⟨18, _⟩ => ⟨S32x512x56x56, .f32⟩
  | .hbm, ⟨19, _⟩ => ⟨S32x512x56x56, .f32⟩
  | .hbm, ⟨20, _⟩ => ⟨S32x512x56x56, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  reducesTo_S32x512x56x56_S32x512_d2_3 : S32x512x56x56.ReducesTo [2, 3] S32x512
  h_S_ : 0 < S_.numel
  bcast_S32x512_S32x512x1x1_0_1 : S32x512.BroadcastsInDim S32x512x1x1 (![0, 1] : Fin 2 → Fin S32x512x1x1.rank)
  shapeCasts_S32x512x1x1_S32x16x32x1x1 : S32x512x1x1.ShapeCasts S32x16x32x1x1
  transposes_S32x16x32x1x1_S32x32x16x1x1_0_2_1_3_4 : S32x16x32x1x1.Transposes [0, 2, 1, 3, 4] S32x32x16x1x1
  shapeCasts_S32x32x16x1x1_S32x512x1x1 : S32x32x16x1x1.ShapeCasts S32x512x1x1
  shapeCasts_S32x512x1x1_S32x32x16x1x1 : S32x512x1x1.ShapeCasts S32x32x16x1x1
  transposes_S32x32x16x1x1_S32x16x32x1x1_0_2_1_3_4 : S32x32x16x1x1.Transposes [0, 2, 1, 3, 4] S32x16x32x1x1
  shapeCasts_S32x16x32x1x1_S32x512x1x1 : S32x16x32x1x1.ShapeCasts S32x512x1x1
  bcast_S_S32x512x1x1 : S_.BroadcastsInDim S32x512x1x1 (![] : Fin 0 → Fin S32x512x1x1.rank)
  bcast_S32x512x1x1_S32x512x56x56_0_1_2_3 : S32x512x1x1.BroadcastsInDim S32x512x56x56 (![0, 1, 2, 3] : Fin 4 → Fin S32x512x56x56.rank)

variable [Facts₀]

class Facts : Prop extends Facts₀ where

variable [Facts]
-- ==== Proof.NamedRun.lean ====
/-
  The idealized kernel's run with its RESULT named.

  @main is three segments: the first pallas_call (the pooling pass), a stretch of fourteen host operations (the two channel
  shuffles and the logistic function, on the small [32, 512, 1, 1] descriptor), and the second pallas_call (the gating pass).
  The generated frame module folds the TensorCore's buffer contents through these segments — `W0` at launch, `W1` after the
  first call's write-backs, `W2 = after hostOps1 W1`, `W3` after the second call's write-backs — and proves every segment's
  record over the thread state "every unscoped buffer at the boundary's contents".  Its own conclusion only reads the argument
  back.  Here the same launch is concluded by reading BOTH the argument and the result buffer `main_v13` off the last thread
  state: every weakly fair execution terminates, nothing faults, the result buffer holds `W3` at `main_v13` and the argument
  is unchanged.  What `W3` holds there, as a function of the argument, is the business of the modules that import this one.
-/
import proofs.«131254_j5875515261458_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents `V3` and the argument ends as launched. -/
theorem run_named : θ_run defs (onTc (τ := τ) (main (F := F))) ⟨m, fun _ => 0, ρ⟩ (fun r => ∀ c : Dev nD,
      r.2.mem ((c.tc : Thread nD τ).loc main_v13) = V3 m ρ c main_v13
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v13 (by decide)),
       (h c _ (mem_uc main_arg0 (by decide))).trans (W3_main_arg0 m ρ c)⟩)

end Cert.KernelIdeal.Named

end
-- ==== Proof.PoolPayload.lean ====
/-
  The pooling pass's arithmetic, read at one element.

  The first kernel's body holds one [1, 512, 56, 56] slab `v` of the input (one batch row, all channels) and stores a
  [1, 512, 1, 1] block: it takes, for every channel and every row `h` of the 56 x 56 picture, the maximum over the columns `w`
  (starting from the word of minus infinity), views the [1, 512, 56] result as [1, 512, 56, 1], takes the maximum over the rows `h`
  the same way, and views the [1, 512, 1] result as [1, 512, 1, 1].  At the extended reals a maximum over one axis is the fold of
  `max` over that axis's coordinates, so the stored element for channel `c` is

      max over h of (max over w of v (0, c, h, w)),

  each maximum started from the same word.  The two views only rename indices: a shape cast keeps the row-major position.
-/
import proofs.«131254_j5875515261458_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pool

open Cert.KernelIdeal Cert.KernelIdeal.Gen Idealize.ShloMosaic Idealize.ShloMosaic.ValueIdx

/-- The start value of both maxima: the f32 word of minus infinity, as the instance reads it. -/
abbrev start : EReal := FloatOps.ofBits (F := Ideal) .f32 0xFF800000#32

/-- The maximum over a 56 x 56 picture, rows outermost, of a function of the row and the column. -/
def picMax (f : Fin 56 → Fin 56 → EReal) : EReal :=
  (Finset.univ : Finset (Fin 56)).fold max start (fun h => (Finset.univ : Finset (Fin 56)).fold max start (fun w => f h w))

/-- The maximum over the last axis of a [1, 512, 56, 56] slab, at (u, c, h). -/
theorem colMax_apply (v : FVec Ideal S1x512x56x56 .f32) (hφ : FKind.Formats .f32)
    (hacc : (0xFF800000#32 : BitVec 32) = FKind.maximumf.neutral .f32 hφ) (u : Fin 1) (c : Fin 512) (h : Fin 56) :
    multiReduction .maximumf [3] S1x512x56 v 0xFF800000#32 reduces_S1x512x56x56_S1x512x56 hφ hacc (ix3 u c h)
      = (Finset.univ : Finset (Fin 56)).fold max start (fun w => v (ix4 u c h w)) := by
  refine (Ideal.multiReduction_maximumf_single v 0xFF800000#32 reduces_S1x512x56x56_S1x512x56 hφ hacc (ix3 u c h)).trans ?_
  refine congrArg (fun g => Finset.fold max start g (Finset.univ : Finset (Fin 56))) (funext fun w => ?_)
  show v (reduces_S1x512x56x56_S1x512x56.lift (ix3 u c h) w) = v (ix4 u c h w)
  refine congrArg v (funext fun a => Fin.ext ?_)
  match a with
  | ⟨0, _⟩ => rfl
  | ⟨1, _⟩ => rfl
  | ⟨2, _⟩ => rfl
  | ⟨3, _⟩ => rfl

/-- The maximum over the third axis of a [1, 512, 56, 1] vector, at (u, c, z). -/
theorem rowMax_apply (v : FVec Ideal S1x512x56x1 .f32) (hφ : FKind.Formats .f32)
    (hacc : (0xFF800000#32 : BitVec 32) = FKind.maximumf.neutral .f32 hφ) (u : Fin 1) (c : Fin 512) (z : Fin 1) :
    multiReduction .maximumf [2] S1x512x1 v 0xFF800000#32 reduces_S1x512x56x1_S1x512x1 hφ hacc (ix3 u c z)
      = (Finset.univ : Finset (Fin 56)).fold max start (fun h => v (ix4 u c h z)) := by
  refine (Ideal.multiReduction_maximumf_single v 0xFF800000#32 reduces_S1x512x56x1_S1x512x1 hφ hacc (ix3 u c z)).trans ?_
  refine congrArg (fun g => Finset.fold max start g (Finset.univ : Finset (Fin 56))) (funext fun h => ?_)
  show v (reduces_S1x512x56x1_S1x512x1.lift (ix3 u c z) h) = v (ix4 u c h z)
  refine congrArg v (funext fun a => Fin.ext ?_)
  match a with
  | ⟨0, _⟩ => rfl
  | ⟨1, _⟩ => rfl
  | ⟨2, _⟩ => rfl
  | ⟨3, _⟩ => rfl

/-- The body's stored block at (u, c, z, z'): the picture maximum of channel `c` of the slab. -/
theorem payload_apply (v : FVec Ideal S1x512x56x56 .f32) (u : Fin 1) (c : Fin 512) (z z' : Fin 1) :
    k0_pay1 (F := Ideal) v (ix4 u c z z') = picMax (fun h w => v (ix4 u c h w)) := by
  unfold k0_pay1 picMax
  -- [1, 512, 1] viewed as [1, 512, 1, 1]
  refine (shapeCast_apply _ shapeCasts_S1x512x1_S1x512x1x1 (ix4 u c z z') (ix3 u c z) (by
    rw [Shape.rowMajor_val_three, Shape.rowMajor_val_four]
    have hz : z'.val = 0 := by omega
    show (u.val * 512 + c.val) * 1 + z.val = ((u.val * 512 + c.val) * 1 + z.val) * 1 + z'.val
    omega)).trans ?_
  refine (rowMax_apply _ (.inl rfl) rfl u c z).trans ?_
  refine congrArg (fun g => Finset.fold max start g (Finset.univ : Finset (Fin 56))) (funext fun h => ?_)
  -- [1, 512, 56] viewed as [1, 512, 56, 1]
  refine (shapeCast_apply _ shapeCasts_S1x512x56_S1x512x56x1 (ix4 u c h z) (ix3 u c h) (by
    rw [Shape.rowMajor_val_three, Shape.rowMajor_val_four]
    have hz : z.val = 0 := by omega
    show (u.val * 512 + c.val) * 56 + h.val = ((u.val * 512 + c.val) * 56 + h.val) * 1 + z.val
    omega)).trans ?_
  exact colMax_apply v (.inl rfl) rfl u c h

end Cert.KernelIdeal.Pool

end
-- ==== Proof.PoolArray.lean ====
/-
  The pooled descriptor as ONE array.

  The pooling pass runs over 32 grid points, one per batch row `b`: point `b` fetches the slab `x[b, :, :, :]` and writes back the
  block `[b, :, 0, 0]` of the [32, 512, 1, 1] result.  Every block is the restriction of one function of the whole input,

      pooled x (b, c, 0, 0) = max over h of (max over w of x (b, c, h, w)),

  because the input window and the output window sit at the same batch row and at block 0 of every other axis, and the 32
  blocks cover the result.  So after the pass the result array IS `pooled` of the input array as the pass found it.
-/
import proofs.«131254_j5875515261458_2_alg».proof.Proof.Gen.KernelIdeal.Frame
import proofs.«131254_j5875515261458_2_alg».proof.Proof.PoolPayload

set_option maxRecDepth 16384

noncomputable section

namespace Cert.KernelIdeal.Pool

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The pooled descriptor of an input array: per batch row and channel, the maximum over the picture. -/
def pooled (X : S32x512x56x56.Idx → EReal) : S32x512x1x1.Idx → EReal :=
  fun i => picMax (fun h w => X (ix4 (i 0) (i 1) h w))

theorem zeros4 : (![0, 0, 0, 0] : Fin 4 → Nat) = fun _ => 0 := funext fun a => by fin_cases a <;> rfl

/-- The two windows' block indices over the grid: the same batch row, block 0 of every other axis. -/
theorem blockIdx : ∀ t : Fin cfg0.N, win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0 :=
  (by decide +kernel : ∀ t : Fin grid0.N, _)

/-- Every batch row is some point's. -/
theorem rowPoint : ∀ q : Fin 32, ∃ t : Fin cfg0.N, win0_1.index t = ![q.val, 0, 0, 0] :=
  (by decide +kernel : ∀ q : Fin 32, ∃ t : Fin grid0.N, win0_1.index t = ![q.val, 0, 0, 0])

/-- One stored element is one element of `pooled`, when the slab is the input read at the same batch row. -/
theorem block_eq (x0 : FVec Ideal S1x512x56x56 .f32) (X : S32x512x56x56.Idx → EReal) (y : S1x512x1x1.Idx) (i : S32x512x1x1.Idx)
    (hx : ∀ h w : Fin 56, x0 (ix4 (y 0) (y 1) h w) = X (ix4 (i 0) (i 1) h w)) :
    k0_pay1 (F := Ideal) x0 y = pooled X i := by
  refine (congrArg (k0_pay1 (F := Ideal) x0) (eq_ix4 y)).trans ?_
  refine (payload_apply x0 (y 0) (y 1) (y 2) (y 3)).trans ?_
  unfold pooled
  exact congrArg picMax (funext fun h => funext fun w => hx h w)

/-- What point `t` writes back is block `t` of `pooled` of the input array as the pass finds it. -/
theorem flushed_eq (c : Dev nD) (t : Fin cfg0.N) :
    (dat0 V c).flushed 1 t = ((cfg0.win 1).blk t).view.read (Elt Ideal) (pooled (V c main_arg0)) := by
  show (cfg0.win 1).cut (grid0.coords t) ((dat0 V c).after 1 t) = _
  rw [after0_1]
  unfold out0_1
  rw [View.canon_unit_zero zeros4]
  simp only [View.ld_unit_zero (S := S1x512x56x56) zeros4]
  obtain ⟨e0, e1, e2, e3, e4, e5, e6⟩ := blockIdx t
  funext y
  show k0_pay1 (F := Ideal) (iblk0 V c 0 t) y = pooled (V c main_arg0) (((cfg0.win 1).blk t).view.emb y)
  refine block_eq _ _ y _ (fun h w => ?_)
  show V c main_arg0 (((cfg0.win 0).blk t).view.emb (ix4 (y 0) (y 1) h w))
    = V c main_arg0 (ix4 ((((cfg0.win 1).blk t).view.emb y) 0) ((((cfg0.win 1).blk t).view.emb y) 1) h w)
  refine congrArg (V c main_arg0) (funext fun a => Fin.ext ?_)
  match a with
  | ⟨0, _⟩ => show win0_0.index t (0 : Fin 4) * 1 + 1 * (y 0).val = win0_1.index t (0 : Fin 4) * 1 + 1 * (y 0).val; omega
  | ⟨1, _⟩ => show win0_0.index t (1 : Fin 4) * 512 + 1 * (y 1).val = win0_1.index t (1 : Fin 4) * 512 + 1 * (y 1).val; omega
  | ⟨2, _⟩ => show win0_0.index t (2 : Fin 4) * 56 + 1 * h.val = h.val; omega
  | ⟨3, _⟩ => show win0_0.index t (3 : Fin 4) * 56 + 1 * w.val = w.val; omega

/-- An index of the result is in point `t`'s block iff each coordinate is in the block's range on its axis. -/
theorem mem_blk (t : Fin cfg0.N) (i : S32x512x1x1.Idx) :
    i ∈ ((cfg0.win 1).blk t).view.set ↔ ∀ a : Fin 4, win0_1.index t a * S1x512x1x1.size a ≤ (i a).val
      ∧ (i a).val < win0_1.index t a * S1x512x1x1.size a + S1x512x1x1.size a := by
  show i ∈ ((View.whole main_v0).slice (win0_1.rect t)).set ↔ _
  rw [View.set_slice_whole, Rect.mem_set_unit]
  exact Iff.rfl

/-- The 32 blocks cover the result: index (b, c, 0, 0) is in the block of the point at batch row `b`. -/
theorem cover (i : S32x512x1x1.Idx) :
    ∃ t : Fin cfg0.N, (cfg0.win 1).flush t = true ∧ i ∈ ((cfg0.win 1).blk t).view.set := by
  have hi0 : (i 0).val < 32 := (i 0).isLt
  have hi1 : (i 1).val < 512 := (i 1).isLt
  have hi2 : (i 2).val < 1 := (i 2).isLt
  have hi3 : (i 3).val < 1 := (i 3).isLt
  obtain ⟨t, ht⟩ := rowPoint ⟨(i 0).val, hi0⟩
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 512 ≤ (i 1).val ∧ (i 1).val < win0_1.index t (1 : Fin 4) * 512 + 512; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- After the pooling pass its result array is `pooled` of the input array as the pass found it. -/
theorem final (c : Dev nD) : (dat0 V c).arrAt 1 cfg0.N = pooled (V c main_arg0) :=
  (dat0 V c).arrAt_eq_of_cover 1 (pooled (V c main_arg0)) (fun t _ => flushed_eq V c t) cover

end Cert.KernelIdeal.Pool

end
-- ==== Proof.GatePayload.lean ====
/-
  The gating pass's arithmetic, read at one element.

  The second kernel's body holds a [1, 256, 56, 56] slab `v` of the input (one batch row, half the channels) and the matching
  [1, 256, 1, 1] block `g` of the gate; it adds the word of 1.0 to the gate, spreads the [1, 256, 1, 1] sum over the 56 x 56
  picture, multiplies the slab by it and stores the product.  So the stored element at (u, c, h, w) is

      v (u, c, h, w) * (1.0 + g (u, c, 0, 0)),

  with 1.0 the f32 word `0x3F800000` as the instance reads it.  The shape cast in the body is between equal shapes and does
  nothing; the spread reads a unit axis at coordinate zero.
-/
import proofs.«131254_j5875515261458_2_alg».proof.Proof.Gen.KernelIdeal.Skeleton
import Idealize.ShloMosaic.Lib.Pipeline.Value
import Idealize.ShloMosaic.Lib.ValueIdx

noncomputable section

namespace Cert.KernelIdeal.Gate

open Cert.KernelIdeal Cert.KernelIdeal.Gen Idealize.ShloMosaic Idealize.ShloMosaic.ValueIdx

/-- The body's constant: the f32 word of 1.0, as the instance reads it. -/
abbrev oneWord : EReal := Scalar.ofBits (F := Ideal) .f32 0x3F800000#32

/-- The body's stored block at (u, c, h, w). -/
theorem payload_apply (g : FVec Ideal S1x256x1x1 .f32) (v : FVec Ideal S1x256x56x56 .f32)
    (u : Fin 1) (c : Fin 256) (h w : Fin 56) :
    k1_pay1 (F := Ideal) g v (ix4 u c h w) = v (ix4 u c h w) * (oneWord + g (ix4 u c (0 : Fin 1) (0 : Fin 1))) := by
  unfold k1_pay1
  show v (ix4 u c h w) * broadcastTo S1x256x56x56 (addf (broadcast S1x256x1x1 oneWord)
      (shapeCast S1x256x1x1 g shapeCasts_S1x256x1x1_S1x256x1x1)) broadcasts_S1x256x1x1_S1x256x56x56 (ix4 u c h w) = _
  refine congrArg (fun r => v (ix4 u c h w) * r) ?_
  refine (broadcastTo_apply _ broadcasts_S1x256x1x1_S1x256x56x56 (ix4 u c h w) (ix4 u c (0 : Fin 1) (0 : Fin 1)) (fun a => ?_)).trans ?_
  · match a with
    | ⟨0, _⟩ => show u.val = if (1 : Nat) = 1 then 0 else u.val; rw [if_pos rfl]; omega
    | ⟨1, _⟩ => show c.val = if (256 : Nat) = 1 then 0 else c.val; rw [if_neg (by decide)]
    | ⟨2, _⟩ => show 0 = if (1 : Nat) = 1 then 0 else h.val; rw [if_pos rfl]
    | ⟨3, _⟩ => show 0 = if (1 : Nat) = 1 then 0 else w.val; rw [if_pos rfl]
  · rw [shapeCast_self]; rfl

end Cert.KernelIdeal.Gate

end
-- ==== Proof.GateArray.lean ====
/-
  The gated result as ONE array.

  The gating pass runs over 32 x 2 grid points: point (b, j) fetches the slab `x[b, 256 j : 256 j + 256, :, :]` and the block
  `gate[b, 256 j : 256 j + 256, 0, 0]`, and writes back the slab `out[b, 256 j : 256 j + 256, :, :]`.  All three windows sit at
  the same batch row and the same half of the channels, so every written slab is the restriction of one function of the two
  whole arrays,

      gated x gate (b, c, h, w) = x (b, c, h, w) * (1.0 + gate (b, c, 0, 0)),

  and the 64 slabs cover the result.  So after the pass the result array IS `gated` of the two arrays as the pass found them.
-/
import proofs.«131254_j5875515261458_2_alg».proof.Proof.Gen.KernelIdeal.Frame
import proofs.«131254_j5875515261458_2_alg».proof.Proof.GatePayload

set_option maxRecDepth 16384

noncomputable section

namespace Cert.KernelIdeal.Gate

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The input scaled by one plus its channel's gate. -/
def gated (X : S32x512x56x56.Idx → EReal) (G : S32x512x1x1.Idx → EReal) : S32x512x56x56.Idx → EReal :=
  fun i => X i * (oneWord + G (ix4 (i 0) (i 1) (0 : Fin 1) (0 : Fin 1)))

theorem zeros4 : (![0, 0, 0, 0] : Fin 4 → Nat) = fun _ => 0 := funext fun a => by fin_cases a <;> rfl

/-- The three windows' block indices over the grid: the same batch row and channel half, block 0 of the picture axes. -/
theorem blockIdx : ∀ t : Fin cfg1.N, win1_0.index t (0 : Fin 4) = win1_2.index t (0 : Fin 4)
    ∧ win1_0.index t (1 : Fin 4) = win1_2.index t (1 : Fin 4) ∧ win1_0.index t (2 : Fin 4) = 0 ∧ win1_0.index t (3 : Fin 4) = 0
    ∧ win1_1.index t (0 : Fin 4) = win1_2.index t (0 : Fin 4) ∧ win1_1.index t (1 : Fin 4) = win1_2.index t (1 : Fin 4)
    ∧ win1_1.index t (2 : Fin 4) = 0 ∧ win1_1.index t (3 : Fin 4) = 0
    ∧ win1_2.index t (2 : Fin 4) = 0 ∧ win1_2.index t (3 : Fin 4) = 0 :=
  (by decide +kernel : ∀ t : Fin grid1.N, _)

/-- Every (batch row, channel half) is some point's. -/
theorem slabPoint : ∀ (q0 : Fin 32) (q1 : Fin 2), ∃ t : Fin cfg1.N, win1_2.index t = ![q0.val, q1.val, 0, 0] :=
  (by decide +kernel : ∀ (q0 : Fin 32) (q1 : Fin 2), ∃ t : Fin grid1.N, win1_2.index t = ![q0.val, q1.val, 0, 0])

/-- One stored element is one element of `gated`, when the slab and the gate block are the arrays read at the same place. -/
theorem block_eq (x0 : FVec Ideal S1x256x56x56 .f32) (x1 : FVec Ideal S1x256x1x1 .f32)
    (X : S32x512x56x56.Idx → EReal) (G : S32x512x1x1.Idx → EReal) (y : S1x256x56x56.Idx) (i : S32x512x56x56.Idx)
    (hx : x0 (ix4 (y 0) (y 1) (y 2) (y 3)) = X i)
    (hg : x1 (ix4 (y 0) (y 1) (0 : Fin 1) (0 : Fin 1)) = G (ix4 (i 0) (i 1) (0 : Fin 1) (0 : Fin 1))) :
    k1_pay1 (F := Ideal) x1 x0 y = gated X G i := by
  refine (congrArg (k1_pay1 (F := Ideal) x1 x0) (eq_ix4 y)).trans ?_
  refine (payload_apply x1 x0 (y 0) (y 1) (y 2) (y 3)).trans ?_
  unfold gated
  rw [hx, hg]

/-- What point `t` writes back is slab `t` of `gated` of the two arrays as the pass finds them. -/
theorem flushed_eq (c : Dev nD) (t : Fin cfg1.N) :
    (dat1 V c).flushed 2 t = ((cfg1.win 2).blk t).view.read (Elt Ideal) (gated (V c main_arg0) (V c main_v12)) := by
  show (cfg1.win 2).cut (grid1.coords t) ((dat1 V c).after 2 t) = _
  rw [after1_2]
  unfold out1_2
  rw [View.canon_unit_zero zeros4]
  simp only [View.ld_unit_zero (S := S1x256x56x56) zeros4, View.ld_unit_zero (S := S1x256x1x1) zeros4]
  obtain ⟨e0, e1, e2, e3, e4, e5, e6, e7, e8, e9⟩ := blockIdx t
  funext y
  show k1_pay1 (F := Ideal) (iblk1 V c 1 t) (iblk1 V c 0 t) y
    = gated (V c main_arg0) (V c main_v12) (((cfg1.win 2).blk t).view.emb y)
  refine block_eq _ _ _ _ y _ ?_ ?_
  · show V c main_arg0 (((cfg1.win 0).blk t).view.emb (ix4 (y 0) (y 1) (y 2) (y 3)))
      = V c main_arg0 (((cfg1.win 2).blk t).view.emb y)
    refine congrArg (V c main_arg0) (funext fun a => Fin.ext ?_)
    match a with
    | ⟨0, _⟩ => show win1_0.index t (0 : Fin 4) * 1 + 1 * (y 0).val = win1_2.index t (0 : Fin 4) * 1 + 1 * (y 0).val; omega
    | ⟨1, _⟩ => show win1_0.index t (1 : Fin 4) * 256 + 1 * (y 1).val = win1_2.index t (1 : Fin 4) * 256 + 1 * (y 1).val; omega
    | ⟨2, _⟩ => show win1_0.index t (2 : Fin 4) * 56 + 1 * (y 2).val = win1_2.index t (2 : Fin 4) * 56 + 1 * (y 2).val; omega
    | ⟨3, _⟩ => show win1_0.index t (3 : Fin 4) * 56 + 1 * (y 3).val = win1_2.index t (3 : Fin 4) * 56 + 1 * (y 3).val; omega
  · show V c main_v12 (((cfg1.win 1).blk t).view.emb (ix4 (y 0) (y 1) (0 : Fin 1) (0 : Fin 1)))
      = V c main_v12 (ix4 ((((cfg1.win 2).blk t).view.emb y) 0) ((((cfg1.win 2).blk t).view.emb y) 1) (0 : Fin 1) (0 : Fin 1))
    refine congrArg (V c main_v12) (funext fun a => Fin.ext ?_)
    match a with
    | ⟨0, _⟩ => show win1_1.index t (0 : Fin 4) * 1 + 1 * (y 0).val = win1_2.index t (0 : Fin 4) * 1 + 1 * (y 0).val; omega
    | ⟨1, _⟩ => show win1_1.index t (1 : Fin 4) * 256 + 1 * (y 1).val = win1_2.index t (1 : Fin 4) * 256 + 1 * (y 1).val; omega
    | ⟨2, _⟩ => show win1_1.index t (2 : Fin 4) * 1 + 1 * 0 = 0; omega
    | ⟨3, _⟩ => show win1_1.index t (3 : Fin 4) * 1 + 1 * 0 = 0; omega

/-- An index of the result is in point `t`'s slab iff each coordinate is in the slab's range on its axis. -/
theorem mem_blk (t : Fin cfg1.N) (i : S32x512x56x56.Idx) :
    i ∈ ((cfg1.win 2).blk t).view.set ↔ ∀ a : Fin 4, win1_2.index t a * S1x256x56x56.size a ≤ (i a).val
      ∧ (i a).val < win1_2.index t a * S1x256x56x56.size a + S1x256x56x56.size a := by
  show i ∈ ((View.whole main_v13).slice (win1_2.rect t)).set ↔ _
  rw [View.set_slice_whole, Rect.mem_set_unit]
  exact Iff.rfl

/-- The 64 slabs cover the result: index (b, c, h, w) is in the slab of the point at batch row `b` and half `c / 256`. -/
theorem cover (i : S32x512x56x56.Idx) :
    ∃ t : Fin cfg1.N, (cfg1.win 2).flush t = true ∧ i ∈ ((cfg1.win 2).blk t).view.set := by
  have hi0 : (i 0).val < 32 := (i 0).isLt
  have hi1 : (i 1).val < 512 := (i 1).isLt
  have hi2 : (i 2).val < 56 := (i 2).isLt
  have hi3 : (i 3).val < 56 := (i 3).isLt
  obtain ⟨t, ht⟩ := slabPoint ⟨(i 0).val, hi0⟩ ⟨(i 1).val / 256, by omega⟩
  have q0 : win1_2.index t (0 : Fin 4) = (i 0).val := congrFun ht 0
  have q1 : win1_2.index t (1 : Fin 4) = (i 1).val / 256 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 256 ≤ (i 1).val ∧ (i 1).val < win1_2.index t (1 : Fin 4) * 256 + 256; omega
  | ⟨2, _⟩ => show win1_2.index t (2 : Fin 4) * 56 ≤ (i 2).val ∧ (i 2).val < win1_2.index t (2 : Fin 4) * 56 + 56; omega
  | ⟨3, _⟩ => show win1_2.index t (3 : Fin 4) * 56 ≤ (i 3).val ∧ (i 3).val < win1_2.index t (3 : Fin 4) * 56 + 56; omega

/-- After the gating pass its result array is `gated` of the input and the gate arrays as the pass found them. -/
theorem final (c : Dev nD) : (dat1 V c).arrAt 2 cfg1.N = gated (V c main_arg0) (V c main_v12) :=
  (dat1 V c).arrAt_eq_of_cover 2 (gated (V c main_arg0) (V c main_v12)) (fun t _ => flushed_eq V c t) cover

end Cert.KernelIdeal.Gate

end
-- ==== Proof.KernelValue.lean ====
/-
  The idealized kernel's result as ONE function of its argument.

  The buffer contents fold through @main's three segments.  After the pooling pass the descriptor buffer holds `pooled x`
  (the per-channel picture maxima of the argument `x`); the host stretch leaves the gate buffer at `gateChain` of the descriptor
  — the two channel shuffles (reshape, transpose, reshape, twice over) and then 1 / (1 + exp (-y)), element by element, written
  here as ONE term that is never opened: the reference applies the very same operations —; it writes neither the argument nor
  the descriptor.  The gating pass then leaves the result buffer at `gated x gate`.  Chained:

      result = gated x (gateChain (pooled x)),     gated x g (b, c, h, w) = x (b, c, h, w) * (1.0 + g (b, c, 0, 0)).
-/
import proofs.«131254_j5875515261458_2_alg».proof.Proof.NamedRun
import proofs.«131254_j5875515261458_2_alg».proof.Proof.PoolArray
import proofs.«131254_j5875515261458_2_alg».proof.Proof.GateArray
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)

/-- The host stretch between the two passes, as one function of the pooled descriptor: shuffle the 512 channels as 16 groups
    of 32, shuffle them back as 32 groups of 16, then the logistic function spelt `1 / (1 + exp (-y))`. -/
def gateChain (y : FVec Ideal S32x512x1x1 .f32) : FVec Ideal S32x512x1x1 .f32 :=
  Host.divf (F := Ideal) (broadcastInDim S32x512x1x1 ![] bcast_S_S32x512x1x1 (constant (F := Ideal) S_ .f32 0x3F800000#32))
    (addf (broadcastInDim S32x512x1x1 ![] bcast_S_S32x512x1x1 (constant (F := Ideal) S_ .f32 0x3F800000#32))
      (Host.exp (F := Ideal) (Host.negf (F := Ideal)
        (shapeCast S32x512x1x1
          (transpose S32x16x32x1x1 [0, 2, 1, 3, 4]
            (shapeCast S32x32x16x1x1
              (shapeCast S32x512x1x1
                (transpose S32x32x16x1x1 [0, 2, 1, 3, 4]
                  (shapeCast S32x16x32x1x1 y shapeCasts_S32x512x1x1_S32x16x32x1x1)
                  transposes_S32x16x32x1x1_S32x32x16x1x1_0_2_1_3_4)
                shapeCasts_S32x32x16x1x1_S32x512x1x1)
              shapeCasts_S32x512x1x1_S32x32x16x1x1)
            transposes_S32x32x16x1x1_S32x16x32x1x1_0_2_1_3_4)
          shapeCasts_S32x16x32x1x1_S32x512x1x1))))

variable (m : (ℓ : Loc nD τ sig) → Buf (Elt Ideal) ℓ) (ρ : Dev nD → PrngReg)

/-- After the pooling pass the descriptor buffer holds the picture maxima of the argument. -/
theorem descriptor (c : Dev nD) : V1 m ρ c main_v0 = Pool.pooled (m ((c : Thread nD τ).loc main_arg0)) :=
  (W1_arr m ρ c 1).trans (Pool.final (V0 m ρ) c)

/-- The host stretch leaves the gate buffer at `gateChain` of the descriptor. -/
theorem gate (c : Dev nD) : V2 m ρ c main_v12 = gateChain (V1 m ρ c main_v0) := by
  show StableHlo.after hostOps1 (W1 m ρ c) (Proc.devRef .tc main_v12) = _
  after_results
  rfl

/-- Neither the pooling pass nor the host stretch writes the argument. -/
theorem argument (c : Dev nD) : V2 m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- After the gating pass the result buffer holds the argument scaled by one plus the gate of its pooled descriptor. -/
theorem result (c : Dev nD) : V3 m ρ c main_v13
    = Gate.gated (m ((c : Thread nD τ).loc main_arg0)) (gateChain (Pool.pooled (m ((c : Thread nD τ).loc main_arg0)))) := by
  refine ((W3_arr m ρ c 2).trans (Gate.final (V2 m ρ) c)).trans ?_
  rw [argument m ρ c, gate m ρ c, descriptor m ρ c]

/-- The idealized kernel's run: every weakly fair execution terminates without a fault, with the result buffer at
    `gated x (gateChain (pooled x))` of the launch contents `x` of the argument, and the argument unchanged. -/
theorem run : θ_run defs (onTc (τ := τ) (main (F := Ideal))) ⟨m, fun _ => 0, ρ⟩ (fun r => ∀ c : Dev nD,
      r.2.mem ((c.tc : Thread nD τ).loc main_v13)
        = Gate.gated (m ((c.tc : Thread nD τ).loc main_arg0)) (gateChain (Pool.pooled (m ((c.tc : Thread nD τ).loc main_arg0))))
      ∧ r.2.mem ((c.tc : Thread nD τ).loc main_arg0) = m ((c.tc : Thread nD τ).loc main_arg0)) :=
  (θ_run defs _ _).mono (fun r h c => ⟨(h c).1.trans (result m ρ c), (h c).2⟩) (Named.run_named m ρ)

end Cert.KernelIdeal.Whole

end
-- ==== Proof.LibGateLaws.lean ====
/-
  Two laws of the extended reals that join the two sides of this certificate, stated with no program in sight.

  * A maximum over a set of indices does not depend on how the set is walked: the fold of `max` from a start value `b`
    over a finite set `s`, every member of which is placed at a pair `(p i, q i)` of coordinates, is the fold over the first
    coordinate of the folds over the second, as long as every pair of coordinates is the place of some member.  Both
    are the least upper bound of `b` and the same values (`Finset.fold_max_le`, `Finset.le_fold_max`).
  * For a REAL `x` and ANY extended real `g`:  `x * (1 + g) = g * x + x`.  A real factor distributes over every sum of
    extended reals, the infinite ones included (the product with `±∞` takes the sign of `x`, and `0 * ±∞ = 0`), which is
    what fails for an infinite factor.
-/
import Idealize.ShloMosaic.PureOps.Ideal.Laws

namespace Cert.Lib.GateLaws

/-- The maximum over a set equals the maximum over rows of the maxima over columns, when the set's members sit at
    (row, column) places `(p i, q i)` and every place `(h, w)` holds a member whose value is `y h w`. -/
theorem fold_max_rows_cols {ι α : Type} [LinearOrder α] {R C : Type} [Fintype R] [Fintype C]
    (s : Finset ι) (x : ι → α) (y : R → C → α) (b : α) (p : ι → R) (q : ι → C)
    (hx : ∀ i ∈ s, x i = y (p i) (q i)) (hy : ∀ h w, ∃ i ∈ s, y h w = x i) :
    s.fold max b x
      = (Finset.univ : Finset R).fold max b (fun h => (Finset.univ : Finset C).fold max b (fun w => y h w)) := by
  apply le_antisymm
  · refine (Finset.fold_max_le _).2 ⟨(Finset.le_fold_max _).2 (Or.inl le_rfl), fun i hi => ?_⟩
    refine (Finset.le_fold_max _).2 (Or.inr ⟨p i, Finset.mem_univ _, ?_⟩)
    exact (Finset.le_fold_max _).2 (Or.inr ⟨q i, Finset.mem_univ _, le_of_eq (hx i hi)⟩)
  · refine (Finset.fold_max_le _).2 ⟨(Finset.le_fold_max _).2 (Or.inl le_rfl), fun h _ => ?_⟩
    refine (Finset.fold_max_le _).2 ⟨(Finset.le_fold_max _).2 (Or.inl le_rfl), fun w _ => ?_⟩
    obtain ⟨i, hi, e⟩ := hy h w
    exact (Finset.le_fold_max _).2 (Or.inr ⟨i, hi, le_of_eq e⟩)

/-- A real factor distributes over `1 + g` for every extended real `g`. -/
theorem real_mul_one_add (x : ℝ) (g : EReal) : (x : EReal) * (1 + g) = g * (x : EReal) + (x : EReal) := by
  induction g using EReal.rec with
  | bot =>
    rcases lt_trichotomy x 0 with h | h | h
    · simp [EReal.coe_mul_bot_of_neg h, EReal.bot_mul_coe_of_neg h]
    · subst h; simp
    · simp [EReal.coe_mul_bot_of_pos h, EReal.bot_mul_coe_of_pos h]
  | coe g => norm_cast; ring
  | top =>
    have h1 : (1 : EReal) + ⊤ = ⊤ := by rw [← EReal.coe_one]; exact EReal.coe_add_top 1
    rw [h1]
    rcases lt_trichotomy x 0 with h | h | h
    · simp [EReal.coe_mul_top_of_neg h, EReal.top_mul_coe_of_neg h]
    · subst h; simp
    · simp [EReal.coe_mul_top_of_pos h, EReal.top_mul_coe_of_pos h]

end Cert.Lib.GateLaws
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.RefValue.lean ====
/-
  The reference's result is the kernel's function of the argument.

  The reference takes the maximum over both picture axes in ONE reduction (a fold over the set of indices with the given batch
  row and channel), spreads the [32, 512] result to [32, 512, 1, 1], runs the same two shuffles and the same logistic function as
  the kernel's host stretch, spreads the gate over the pictures, multiplies by the argument and adds the argument.

  * The one reduction is the kernel's two: a maximum over a set of (row, column) places is the maximum over rows of the maxima
    over columns (the maximum's universal property; no finiteness is needed, and the start word is never evaluated).
  * From there on the two programs apply one and the same term `gateChain` to one and the same descriptor.
  * Last, element by element, `gate * x + x = x * (1 + gate)`: this is where the precondition enters — `x` is a real number,
    and a real factor distributes over `1 + gate` whatever extended real the gate is — and where the kernel's word of 1.0 is read
    as the number one.
-/
import proofs.«131254_j5875515261458_2_alg».proof.Proof.Gen.ReferenceIdeal.Read
import proofs.«131254_j5875515261458_2_alg».proof.Proof.KernelValue
import proofs.«131254_j5875515261458_2_alg».proof.Proof.LibGateLaws
import proofs.«131254_j5875515261458_2_alg».proof.Proof.LibReal

set_option maxRecDepth 16384

noncomputable section

namespace Cert.ReferenceIdeal.Bridge

open Cert.ReferenceIdeal Cert.ReferenceIdeal.Gen Idealize.ShloMosaic Idealize.ShloMosaic.ValueIdx

/-- The reference's spread-out maximum over both picture axes is the kernel's rows-of-columns maximum. -/
theorem descriptor_eq (x : FVec Ideal S32x512x56x56 .f32) :
    Read.val_main_v1 (F := Ideal) x = Cert.KernelIdeal.Pool.pooled x := by
  funext i
  rw [Read.val_main_v1_apply]
  unfold Read.val_main_v0
  refine (Host.reduce_eq_fold FloatOps.maximumf x _ reducesTo_S32x512x56x56_S32x512_d2_3 h_S_ (Read.idx_main_v1 i)).trans ?_
  unfold Cert.KernelIdeal.Pool.pooled Cert.KernelIdeal.Pool.picMax
  refine Cert.Lib.GateLaws.fold_max_rows_cols _ x (fun h w => x (ix4 (i 0) (i 1) h w)) _ (fun i' => i' 2) (fun i' => i' 3) ?_ ?_
  · intro i' hi'
    have hd := (Finset.mem_filter.1 hi').2
    have d0 : (i' 0).val = (i 0).val :=
      (reducesTo_S32x512x56x56_S32x512_d2_3.drop_apply_val_of_eq i' 0 0).symm.trans (congrArg (fun j : S32x512.Idx => (j 0).val) hd)
    have d1 : (i' 1).val = (i 1).val :=
      (reducesTo_S32x512x56x56_S32x512_d2_3.drop_apply_val_of_eq i' 1 1).symm.trans (congrArg (fun j : S32x512.Idx => (j 1).val) hd)
    refine congrArg x (funext fun a => Fin.ext ?_)
    match a with
    | ⟨0, _⟩ => exact d0
    | ⟨1, _⟩ => exact d1
    | ⟨2, _⟩ => rfl
    | ⟨3, _⟩ => rfl
  · intro h w
    refine ⟨ix4 (i 0) (i 1) h w, Finset.mem_filter.2 ⟨Finset.mem_univ _, funext fun b => Fin.ext ?_⟩, rfl⟩
    match b with
    | ⟨0, _⟩ => exact reducesTo_S32x512x56x56_S32x512_d2_3.drop_apply_val_of_eq (ix4 (i 0) (i 1) h w) 0 0
    | ⟨1, _⟩ => exact reducesTo_S32x512x56x56_S32x512_d2_3.drop_apply_val_of_eq (ix4 (i 0) (i 1) h w) 1 1

/-- The reference's gate is the kernel's: the same operations of the same descriptor. -/
theorem gate_eq (x : FVec Ideal S32x512x56x56 .f32) :
    Read.val_main_v13 (F := Ideal) x = Cert.KernelIdeal.Whole.gateChain (Cert.KernelIdeal.Pool.pooled x) :=
  (show Read.val_main_v13 (F := Ideal) x = Cert.KernelIdeal.Whole.gateChain (Read.val_main_v1 (F := Ideal) x) from rfl).trans
    (congrArg Cert.KernelIdeal.Whole.gateChain (descriptor_eq x))

/-- On an argument of real entries the reference's result is the kernel's function `gated x (gateChain (pooled x))`. -/
theorem result_eq (x : FVec Ideal S32x512x56x56 .f32) (hx : ∀ i, ∃ r : ℝ, x i = (r : EReal)) :
    Read.val_main_v16 (F := Ideal) x
      = Cert.KernelIdeal.Gate.gated x (Cert.KernelIdeal.Whole.gateChain (Cert.KernelIdeal.Pool.pooled x)) := by
  funext i
  rw [Read.val_main_v16_apply, Read.val_main_v15_apply, Read.val_main_v14_apply, gate_eq]
  have hidx : Read.idx_main_v14 i = ix4 (i 0) (i 1) (0 : Fin 1) (0 : Fin 1) := funext fun a => Fin.ext (by
    match a with
    | ⟨0, _⟩ => rfl
    | ⟨1, _⟩ => rfl
    | ⟨2, _⟩ => rfl
    | ⟨3, _⟩ => rfl)
  rw [hidx]
  unfold Cert.KernelIdeal.Gate.gated
  obtain ⟨r, hr⟩ := hx i
  rw [hr]
  have key := Cert.Lib.GateLaws.real_mul_one_add r
    (Cert.KernelIdeal.Whole.gateChain (Cert.KernelIdeal.Pool.pooled x) (ix4 (i 0) (i 1) (0 : Fin 1) (0 : Fin 1)))
  rw [← Cert.LibReal.ofBits_one] at key
  exact key.symm

end Cert.ReferenceIdeal.Bridge

end
-- ==== Proof.RealEntries.lean ====
/-
  What the precondition says of the argument: every entry is a real number.

  The printed precondition compares, entry by entry, `|x| < +∞` (the absolute value as `max x (-x)`, the bound the f32 word
  of plus infinity) and takes the conjunction over all 32 * 512 * 56 * 56 entries, a reduction by `and` from `true` into a
  result with one index.  If that result is 1, every compared entry is 1, so `max x (-x) < ⊤` there; on the extended reals
  that excludes `x = ⊤` and `x = ⊥` (whose negative is `⊤`), leaving a real number.
-/
import proofs.«131254_j5875515261458_2_alg».proof.Pre_finite_inputs
import Idealize.ShloMosaic.Lib.ReduceAll
import Idealize.ShloMosaic.Lib.ValueIdx
import Idealize.ShloMosaic.PureOps.Ideal

noncomputable section

namespace Cert.Pre_finite_inputs.Entries

open Cert.Pre_finite_inputs Idealize.ShloMosaic

variable [Facts]

instance : Subsingleton S_.Idx := ⟨fun a b => funext fun d => d.elim0⟩

/-- The f32 word `0x7F800000` denotes plus infinity. -/
theorem word_top : Ideal.ofBits .f32 0x7F800000#32 = (⊤ : EReal) := by
  simp [Ideal.ofBits, Ideal.ieee]

/-- Under the precondition every entry of the argument is a real number. -/
theorem real_of_pre (x : FVec Ideal S32x512x56x56 .f32) (h : fn (F := Ideal) x = fun _ => 1#1) (i : S32x512x56x56.Idx) :
    ∃ r : ℝ, x i = (r : EReal) := by
  have h0 := congrFun h ValueIdx.ix0
  dsimp only [fn] at h0
  have hi := Host.reduce_andi_all _ _ Facts.reducesTo_S32x512x56x56_S_d0_1_2_3 Facts.h_S_ ValueIdx.ix0 h0 i
  have hb : BitVec.ofBool (decide (max (x i) (-(x i)) < Ideal.ofBits .f32 0x7F800000#32)) = 1#1 := hi
  rw [word_top] at hb
  have hlt : max (x i) (-(x i)) < ⊤ := by
    by_contra hn
    rw [decide_eq_false hn] at hb
    exact absurd hb (by decide)
  generalize x i = v at hlt ⊢
  induction v using EReal.rec with
  | bot => rw [EReal.neg_bot, max_eq_right bot_le] at hlt; exact absurd hlt (lt_irrefl _)
  | coe r => exact ⟨r, rfl⟩
  | top => rw [EReal.neg_top, max_eq_left bot_le] at hlt; exact absurd hlt (lt_irrefl _)

end Cert.Pre_finite_inputs.Entries

end
-- ==== Proof.lean ====
/-
  A channel-descriptor gate on x : f32[32, 512, 56, 56].  Both programs compute, per batch row b and channel c,

      M (b, c) = max over the 56 x 56 picture of x (b, c, ·, ·),
      gate     = logistic (shuffle (shuffle M))      (two channel shuffles of the [32, 512, 1, 1] descriptor, then 1 / (1 + exp (-y))),

  and return x scaled by one plus its channel's gate.  The kernel does it in two passes with a stretch of host operations
  between them: the first pass takes the maximum over the columns and then over the rows, one batch row per grid point; the
  second multiplies a [256, 56, 56] slab by `1.0 + gate`, one (batch row, channel half) per grid point.  The reference takes the
  maximum over both picture axes at once and returns `gate * x + x`.

  At the extended reals the two maxima agree for every input (a maximum does not depend on how its index set is walked), the
  host stretch is literally the same term on both sides, and `x * (1 + g) = g * x + x` holds for a REAL x and any extended real
  g: the precondition, every entry of x finite, is used exactly there.

  The three frames: the two kernel programs' are the generated ones; the reference has no kernel, and its frame is its run with
  the result forgotten.  The ideal pass rewrote nothing, so there is nothing to preserve.
-/
import proofs.«131254_j5875515261458_2_alg».proof.Defs
import proofs.«131254_j5875515261458_2_alg».proof.Proof.Gen.Kernel
import proofs.«131254_j5875515261458_2_alg».proof.Proof.Gen.Kernel.Frame
import proofs.«131254_j5875515261458_2_alg».proof.Proof.Gen.KernelIdeal
import proofs.«131254_j5875515261458_2_alg».proof.Proof.Gen.KernelIdeal.Frame
import proofs.«131254_j5875515261458_2_alg».proof.Proof.Gen.ReferenceIdeal
import proofs.«131254_j5875515261458_2_alg».proof.Proof.Gen.Pre_finite_inputs
import proofs.«131254_j5875515261458_2_alg».proof.Proof.Gen.ReferenceIdeal.Run
import proofs.«131254_j5875515261458_2_alg».proof.Proof.Gen.ReferenceIdeal.Read
import proofs.«131254_j5875515261458_2_alg».proof.Proof.KernelValue
import proofs.«131254_j5875515261458_2_alg».proof.Proof.RefValue
import proofs.«131254_j5875515261458_2_alg».proof.Proof.RealEntries

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `gated x (gateChain (pooled x))` of the common argument `x`: the kernel's by its two passes
    read as whole-array functions, the reference's by the bridge, on an argument whose entries are real by the precondition. -/
theorem algebraic : Cert.algebraic_KernelIdeal_ReferenceIdeal := by
  intro m ρ m' ρ' hpre hagree
  refine ⟨fun c => Cert.KernelIdeal.Gate.gated (m ((c.tc : Thread Cert.KernelIdeal.nD Cert.KernelIdeal.τ).loc Cert.KernelIdeal.main_arg0))
      (Cert.KernelIdeal.Whole.gateChain (Cert.KernelIdeal.Pool.pooled (m ((c.tc : Thread Cert.KernelIdeal.nD Cert.KernelIdeal.τ).loc Cert.KernelIdeal.main_arg0)))),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, hagree c]
  exact Cert.ReferenceIdeal.Bridge.result_eq _ (Cert.Pre_finite_inputs.Entries.real_of_pre _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
